-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x21x3 : Shape := ⟨3, ![524288, 21, 3]⟩
abbrev S_ : Shape := ⟨0, ![]⟩

class Facts : Prop where
  bcast_S_S524288x21x3 : S_.BroadcastsInDim S524288x21x3 (![] : Fin 0 → Fin S524288x21x3.rank)
  reducesTo_S524288x21x3_S_d0_1_2 : S524288x21x3.ReducesTo [0, 1, 2] S_
  h_S_ : 0 < S_.numel

variable [Facts]

def fn {F : FTy → Type} [FloatOps F] (main_arg0 : FVec F S524288x21x3 .f32) (main_arg1 : FVec F S524288x21x3 .f32) : IVec S_ 1 :=
  let main_v0 : FVec F S524288x21x3 .f32 := Host.absf main_arg0
  let main_cst : FVec F S_ .f32 := constant S_ .f32 0x7F800000#32
  let main_v1 : FVec F S524288x21x3 .f32 := broadcastInDim S524288x21x3 ![] bcast_S_S524288x21x3 main_cst
  let main_v2 : IVec S524288x21x3 1 := cmpf .olt main_v0 main_v1
  let main_c : IVec S_ 1 := constantI S_ 1 1#1
  let main_v3 : IVec S_ 1 := (fun x v => Host.reduce IntOp.andi x v reducesTo_S524288x21x3_S_d0_1_2 h_S_) main_v2 main_c
  let main_v4 : FVec F S524288x21x3 .f32 := Host.absf main_arg1
  let main_cst_0 : FVec F S_ .f32 := constant S_ .f32 0x7F800000#32
  let main_v5 : FVec F S524288x21x3 .f32 := broadcastInDim S524288x21x3 ![] bcast_S_S524288x21x3 main_cst_0
  let main_v6 : IVec S524288x21x3 1 := cmpf .olt main_v4 main_v5
  let main_c_1 : IVec S_ 1 := constantI S_ 1 1#1
  let main_v7 : IVec S_ 1 := (fun x v => Host.reduce IntOp.andi x v reducesTo_S524288x21x3_S_d0_1_2 h_S_) main_v6 main_c_1
  let main_v8 : IVec S_ 1 := andi main_v3 main_v7
  main_v8
-- ==== Kernel.lean ====
abbrev S524288x21x3 : Shape := ⟨3, ![524288, 21, 3]⟩
abbrev S524288x63 : Shape := ⟨2, ![524288, 63]⟩
abbrev S2x1x1 : Shape := ⟨3, ![2, 1, 1]⟩
abbrev S8192x63 : Shape := ⟨2, ![8192, 63]⟩
abbrev S1x1x1 : Shape := ⟨3, ![1, 1, 1]⟩
abbrev S1x1 : Shape := ⟨2, ![1, 1]⟩
abbrev S8192x3 : Shape := ⟨2, ![8192, 3]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S524288x21x3, .f32⟩
  | .hbm, ⟨1, _⟩ => ⟨S524288x21x3, .f32⟩
  | .hbm, ⟨2, _⟩ => ⟨S524288x63, .f32⟩
  | .hbm, ⟨3, _⟩ => ⟨S524288x63, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x63, .f32⟩
  | .local _ .vmem, ⟨1, _⟩ => ⟨S8192x63, .f32⟩
  | .local _ .vmem, ⟨2, _⟩ => ⟨S8192x63, .f32⟩
  | .local _ .vmem, ⟨3, _⟩ => ⟨S8192x63, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S524288x21x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v413 : BitVec 1 := Scalar.cmpi .eq arg1 c31_i32
  let v414 : BitVec 32 := Scalar.extui v413
  let c0_i32_68 : BitVec 32 := 0#32
  let v415 : BitVec 1 := Scalar.cmpi .ne v414 c0_i32_68
  v415

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x63 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x63 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S524288x21x3_S524288x63 : S524288x21x3.ShapeCasts S524288x63
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x63_S8192x63_0_0 : ∀ a, (![0, 0] : Fin 2 → Nat) a + S8192x63.size a ≤ S8192x63.size a
  h_S8192x63 : 0 < S8192x63.numel
  shapeCasts_S8192x63_S8192x63 : S8192x63.ShapeCasts S8192x63
  slices_S8192x63_o0_9_S8192x3 : S8192x63.Slices ![0, 9] S8192x3
  slices_S8192x63_o0_6_S8192x3 : S8192x63.Slices ![0, 6] S8192x3
  reduces_S8192x3_S8192 : S8192x3.Reduces [1] S8192
  shapeCasts_S8192_S8192x1 : S8192.ShapeCasts S8192x1
  reduces_S8192x1_S1 : S8192x1.Reduces [0] S1
  shapeCasts_S1_S1x1 : S1.ShapeCasts S1x1
  slices_S8192x63_o0_60_S8192x3 : S8192x63.Slices ![0, 60] S8192x3
  slices_S8192x63_o0_24_S8192x3 : S8192x63.Slices ![0, 24] S8192x3
  slices_S8192x63_o0_27_S8192x3 : S8192x63.Slices ![0, 27] S8192x3
  slices_S8192x63_o0_30_S8192x3 : S8192x63.Slices ![0, 30] S8192x3
  slices_S8192x63_o0_33_S8192x3 : S8192x63.Slices ![0, 33] S8192x3
  slices_S8192x63_o0_12_S8192x3 : S8192x63.Slices ![0, 12] S8192x3
  slices_S8192x63_o0_15_S8192x3 : S8192x63.Slices ![0, 15] S8192x3
  slices_S8192x63_o0_18_S8192x3 : S8192x63.Slices ![0, 18] S8192x3
  slices_S8192x63_o0_21_S8192x3 : S8192x63.Slices ![0, 21] S8192x3
  slices_S8192x63_o0_3_S8192x3 : S8192x63.Slices ![0, 3] S8192x3
  slices_S8192x63_o0_0_S8192x3 : S8192x63.Slices ![0, 0] S8192x3
  slices_S8192x63_o0_48_S8192x3 : S8192x63.Slices ![0, 48] S8192x3
  slices_S8192x63_o0_51_S8192x3 : S8192x63.Slices ![0, 51] S8192x3
  slices_S8192x63_o0_54_S8192x3 : S8192x63.Slices ![0, 54] S8192x3
  slices_S8192x63_o0_57_S8192x3 : S8192x63.Slices ![0, 57] S8192x3
  slices_S8192x63_o0_36_S8192x3 : S8192x63.Slices ![0, 36] S8192x3
  slices_S8192x63_o0_39_S8192x3 : S8192x63.Slices ![0, 39] S8192x3
  slices_S8192x63_o0_42_S8192x3 : S8192x63.Slices ![0, 42] S8192x3
  slices_S8192x63_o0_45_S8192x3 : S8192x63.Slices ![0, 45] S8192x3
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x63.size a ≤ S524288x63.size a
  hwx0_0 : ∀ i : grid0.Coords, EltTy.bits .f32 = 32 ∨ (Rect.block (s := S524288x63) S8192x63.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x63.size a ≤ S524288x63.size a
  hwx0_1 : ∀ i : grid0.Coords, EltTy.bits .f32 = 32 ∨ (Rect.block (s := S524288x63) S8192x63.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S8192x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x63.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S524288x21x3 : Shape := ⟨3, ![524288, 21, 3]⟩
abbrev S20 : Shape := ⟨1, ![20]⟩
abbrev S_ : Shape := ⟨0, ![]⟩
abbrev S20x1 : Shape := ⟨2, ![20, 1]⟩
abbrev S524288x20x3 : Shape := ⟨3, ![524288, 20, 3]⟩
abbrev S524288x20 : Shape := ⟨2, ![524288, 20]⟩

abbrev nBuf : Space → Nat
  | .hbm => 57
  | .vmem => 0
  | .smem => 0
  | _ => 0

abbrev bufTy : (tb : Table) → Fin (tcTables nBuf tb) → BufTy
  | .hbm, ⟨0, _⟩ => ⟨S524288x21x3, .f32⟩
  | .hbm, ⟨1, _⟩ => ⟨S524288x21x3, .f32⟩
  | .hbm, ⟨2, _⟩ => ⟨S20, .i32⟩
  | .hbm, ⟨3, _⟩ => ⟨S20, .i32⟩
  | .hbm, ⟨4, _⟩ => ⟨S_, .i32⟩
  | .hbm, ⟨5, _⟩ => ⟨S20, .i32⟩
  | .hbm, ⟨6, _⟩ => ⟨S20, .i1⟩
  | .hbm, ⟨7, _⟩ => ⟨S_, .i32⟩
  | .hbm, ⟨8, _⟩ => ⟨S20, .i32⟩
  | .hbm, ⟨9, _⟩ => ⟨S20, .i32⟩
  | .hbm, ⟨10, _⟩ => ⟨S20, .i32⟩
  | .hbm, ⟨11, _⟩ => ⟨S20x1, .i32⟩
  | .hbm, ⟨12, _⟩ => ⟨S524288x20x3, .f32⟩
  | .hbm, ⟨13, _⟩ => ⟨S_, .i32⟩
  | .hbm, ⟨14, _⟩ => ⟨S20, .i32⟩
  | .hbm, ⟨15, _⟩ => ⟨S20, .i1⟩
  | .hbm, ⟨16, _⟩ => ⟨S_, .i32⟩
  | .hbm, ⟨17, _⟩ => ⟨S20, .i32⟩
  | .hbm, ⟨18, _⟩ => ⟨S20, .i32⟩
  | .hbm, ⟨19, _⟩ => ⟨S20, .i32⟩
  | .hbm, ⟨20, _⟩ => ⟨S20x1, .i32⟩
  | .hbm, ⟨21, _⟩ => ⟨S524288x20x3, .f32⟩
  | .hbm, ⟨22, _⟩ => ⟨S524288x20x3, .f32⟩
  | .hbm, ⟨23, _⟩ => ⟨S524288x20x3, .f32⟩
  | .hbm, ⟨24, _⟩ => ⟨S_, .f32⟩
  | .hbm, ⟨25, _⟩ => ⟨S524288x20, .f32⟩
  | .hbm, ⟨26, _⟩ => ⟨S524288x20, .f32⟩
  | .hbm, ⟨27, _⟩ => ⟨S_, .i32⟩
  | .hbm, ⟨28, _⟩ => ⟨S20, .i32⟩
  | .hbm, ⟨29, _⟩ => ⟨S20, .i1⟩
  | .hbm, ⟨30, _⟩ => ⟨S_, .i32⟩
  | .hbm, ⟨31, _⟩ => ⟨S20, .i32⟩
  | .hbm, ⟨32, _⟩ => ⟨S20, .i32⟩
  | .hbm, ⟨33, _⟩ => ⟨S20, .i32⟩
  | .hbm, ⟨34, _⟩ => ⟨S20x1, .i32⟩
  | .hbm, ⟨35, _⟩ => ⟨S524288x20x3, .f32⟩
  | .hbm, ⟨36, _⟩ => ⟨S_, .i32⟩
  | .hbm, ⟨37, _⟩ => ⟨S20, .i32⟩
  | .hbm, ⟨38, _⟩ => ⟨S20, .i1⟩
  | .hbm, ⟨39, _⟩ => ⟨S_, .i32⟩
  | .hbm, ⟨40, _⟩ => ⟨S20, .i32⟩
  | .hbm, ⟨41, _⟩ => ⟨S20, .i32⟩
  | .hbm, ⟨42, _⟩ => ⟨S20, .i32⟩
  | .hbm, ⟨43, _⟩ => ⟨S20x1, .i32⟩
  | .hbm, ⟨44, _⟩ => ⟨S524288x20x3, .f32⟩
  | .hbm, ⟨45, _⟩ => ⟨S524288x20x3, .f32⟩
  | .hbm, ⟨46, _⟩ => ⟨S524288x20x3, .f32⟩
  | .hbm, ⟨47, _⟩ => ⟨S_, .f32⟩
  | .hbm, ⟨48, _⟩ => ⟨S524288x20, .f32⟩
  | .hbm, ⟨49, _⟩ => ⟨S524288x20, .f32⟩
  | .hbm, ⟨50, _⟩ => ⟨S524288x20, .f32⟩
  | .hbm, ⟨51, _⟩ => ⟨S524288x20, .f32⟩
  | .hbm, ⟨52, _⟩ => ⟨S524288x20, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S524288x21x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_c_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_3 : Ref sig .tc := ⟨.hbm, 13, rfl⟩
abbrev main_v7 : Ref sig .tc := ⟨.hbm, 14, rfl⟩
abbrev main_v8 : Ref sig .tc := ⟨.hbm, 15, rfl⟩
abbrev main_c_4 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_c_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_v24 : Ref sig .tc := ⟨.hbm, 38, rfl⟩
abbrev main_c_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call1_v0 : Ref sig .tc := ⟨.hbm, 46, rfl⟩
abbrev main_call1_cst : Ref sig .tc := ⟨.hbm, 47, rfl⟩
abbrev main_call1_v1 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩

abbrev nD : Nat := 1
abbrev τ : Topo := Topo.v7x

variable {F : FTy → Type} [FloatOps F]

class Facts₀ : Prop where
  bcast_S_S20 : S_.BroadcastsInDim S20 (![] : Fin 0 → Fin S20.rank)
  bcast_S20_S20x1_0 : S20.BroadcastsInDim S20x1 (![0] : Fin 1 → Fin S20x1.rank)
  reducesTo_S524288x20x3_S524288x20_d2 : S524288x20x3.ReducesTo [2] S524288x20
  h_S_ : 0 < S_.numel
  reducesTo_S524288x20_S_d0_1 : S524288x20.ReducesTo [0, 1] S_
  gather_S524288x21x3_S20x1_S524288x20x3_02_1_n_n_1_1_52428813_wf : GatherDims.WF S524288x21x3 S20x1 S524288x20x3 [0, 2] [1] [] [1] [] 1 ![524288, 1, 3]

variable [Facts₀]

def gather_S524288x21x3_S20x1_S524288x20x3_02_1_n_n_1_1_52428813 : GatherDims S524288x21x3 S20x1 S524288x20x3 where
  offsetDims := [0, 2]
  collapsedSliceDims := [1]
  operandBatchingDims := []
  startIndicesBatchingDims := []
  startIndexMap := [1]
  indexVectorDim := 1
  sliceSizes := ![524288, 1, 3]
  wf := gather_S524288x21x3_S20x1_S524288x20x3_02_1_n_n_1_1_52428813_wf

class Facts : Prop extends Facts₀ where

variable [Facts]
-- ==== Proof.Spec.lean ====
/-
  The quantity both programs compute, as one function of the two joint arrays on the extended reals.

  A skeleton has 21 joints with 3 coordinates each; a bone joins two joints. For a sample `i` and a bone `b` with end
  joints `jointA b`, `jointB b`, the bone's length in an array `x` is the square root of the sum over the three coordinates
  of the squared coordinate difference. The relative error of the predicted length against the true one is
  `|len p - len g| / len g` (the absolute value as `max d (-d)`, the quotient the extended reals' `Ideal.div`), and the
  result is the sum of these over all 524288 samples and all 20 bones, divided by their number 10485760 (the float
  literal of that integer, kept as its word).
-/
import Idealize.ShloMosaic.PureOps.Ideal
import Idealize.ShloMosaic.Lib.ValueIdx

noncomputable section

namespace Cert.BoneLoss

open Idealize.ShloMosaic Idealize.ShloMosaic.ValueIdx

/-- The shape of a joint array: samples × joints × coordinates. -/
abbrev SJ : Shape := ⟨3, ![524288, 21, 3]⟩

/-- The first end joint of each of the 20 bones. -/
def jointA : Fin 20 → Fin 21 := ![3, 2, 20, 8, 9, 10, 20, 4, 5, 6, 20, 1, 0, 16, 17, 18, 0, 12, 13, 14]

/-- The second end joint of each of the 20 bones. -/
def jointB : Fin 20 → Fin 21 := ![2, 20, 8, 9, 10, 11, 4, 5, 6, 7, 1, 0, 16, 17, 18, 19, 12, 13, 14, 15]

/-- The squared coordinate difference of a bone's two end joints, at coordinate `c`. -/
def sqDiff (x : SJ.Idx → EReal) (i : Fin 524288) (b : Fin 20) (c : Fin 3) : EReal :=
  (x (ix3 i (jointA b) c) - x (ix3 i (jointB b) c)) * (x (ix3 i (jointA b) c) - x (ix3 i (jointB b) c))

/-- The length of bone `b` of sample `i` in the joint array `x`. -/
def boneLen (x : SJ.Idx → EReal) (i : Fin 524288) (b : Fin 20) : EReal :=
  Ideal.sqrt (∑ c : Fin 3, sqDiff x i b c)

/-- The relative error of the predicted bone length against the true one. -/
def relErr (p g : SJ.Idx → EReal) (i : Fin 524288) (b : Fin 20) : EReal :=
  Ideal.div (max (boneLen p i b - boneLen g i b) (-(boneLen p i b - boneLen g i b))) (boneLen g i b)

/-- The mean relative bone-length error over all samples and bones. -/
def meanRel (p g : SJ.Idx → EReal) : EReal :=
  Ideal.div (∑ i : Fin 524288, ∑ b : Fin 20, relErr p g i b) (Ideal.ofBits .f32 0x4B200000#32)

end Cert.BoneLoss

end
-- ==== Proof.LibTileStats.lean ====
/-
  General lemmas for sums taken tile by tile.

  * A lane reduction along the FIRST axis of an [a, b] array of extended reals, read at a column: the column's sum.
  * A sum over m · n rows is the sum over m tiles of the sums over each tile's n rows.
  * A sum over the first k + 1 tiles is the sum over the first k tiles plus tile k's.
-/
import Idealize.ShloMosaic.PureOps.Ideal.Laws
import Idealize.ShloMosaic.Lib.ValueIdx
import Mathlib.Algebra.BigOperators.Fin
import Mathlib.Logic.Equiv.Fin.Basic

noncomputable section

namespace Cert.Lib.TileStats

open Idealize.ShloMosaic Idealize.ShloMosaic.ValueIdx

/-- A sum over the first axis of an `[a, b]` array of extended reals, read at column `q`: the column's sum. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ y : Fin a, src (ix2 y q) := by
  refine (Ideal.multiReduction_add_single src acc h hφ hacc (ix1 q)).trans ?_
  refine Finset.sum_congr rfl fun k _ => congrArg src (funext fun ax => Fin.ext ?_)
  match ax with
  | ⟨0, _⟩ => rfl
  | ⟨1, _⟩ => rfl

/-- The same for a single-precision array whose accumulator is the zero pattern, the proof argument typed as it is printed. -/
theorem colSum_f32_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ y : Fin a, src (ix2 y q) :=
  colSum_apply src _ h hφ hacc q

/-- Row `y` of tile `t` among tiles of `n` rows, kept below `N` by a remainder that does nothing on a real tile. -/
def tileRow (N n : ℕ) (hN : 0 < N) (t : ℕ) (y : Fin n) : Fin N := ⟨(t * n + y.val) % N, Nat.mod_lt _ hN⟩

theorem tileRow_val {N n : ℕ} (hN : 0 < N) (t : ℕ) (y : Fin n) (h : t * n + y.val < N) :
    (tileRow N n hN t y).val = t * n + y.val := Nat.mod_eq_of_lt h

/-- A sum over `m · n` rows, tile by tile. -/
theorem sum_tiles {M : Type*} [AddCommMonoid M] (m n N : ℕ) (hmn : m * n = N) (hN : 0 < N) (f : Fin N → M) :
    ∑ r : Fin N, f r = ∑ t ∈ Finset.range m, ∑ y : Fin n, f (tileRow N n hN t y) := by
  subst hmn
  rw [← Fin.sum_univ_eq_sum_range (fun t => ∑ y : Fin n, f (tileRow (m * n) n hN t y)) m]
  rw [← Equiv.sum_comp finProdFinEquiv f, Fintype.sum_prod_type]
  refine Finset.sum_congr rfl fun t _ => Finset.sum_congr rfl fun y _ => congrArg f (Fin.ext ?_)
  have hlt : t.val * n + y.val < m * n := by
    have h1 : t.val + 1 ≤ m := t.isLt
    calc t.val * n + y.val < t.val * n + n := by have := y.isLt; omega
      _ = (t.val + 1) * n := by ring
      _ ≤ m * n := Nat.mul_le_mul_right n h1
  rw [tileRow_val hN t.val y hlt]
  show y.val + n * t.val = t.val * n + y.val
  rw [Nat.mul_comm, Nat.add_comm]

/-- One more tile. -/
theorem sum_range_succ_tile {M : Type*} [AddCommMonoid M] (g : ℕ → M) (k : ℕ) :
    ∑ t ∈ Finset.range (k + 1 + 1), g t = (∑ t ∈ Finset.range (k + 1), g t) + g (k + 1) :=
  Finset.sum_range_succ g (k + 1)

end Cert.Lib.TileStats

end
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.TileOps.lean ====
/-
  One tile of 8192 samples, bone by bone.

  A tile is an [8192, 63] block of each joint array: row `r` holds one sample's 21 joints, joint `a`'s three
  coordinates in columns `3a, 3a+1, 3a+2`. For a bone `b` the three-column slices at its two end joints are
  subtracted, squared and summed along the row, and the square root taken: a column of 8192 bone lengths. The
  relative error column is `|len p - len g| / len g`, its sum over the 8192 rows one number, and the tile's total
  the 20 bones' numbers added in order onto zero.

  Read on the extended reals, the total's one entry is the sum over bones and rows of the relative error of that
  row's sample, the sample given by the row's 63 numbers regrouped as joints × coordinates.
-/
import proofs.«155267_j75093208203682_2_alg».proof.Proof.Gen.KernelIdeal.Skeleton
import proofs.«155267_j75093208203682_2_alg».proof.Proof.Spec
import proofs.«155267_j75093208203682_2_alg».proof.Proof.LibTileStats
import proofs.«155267_j75093208203682_2_alg».proof.Proof.LibRowOps
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.ValueIdx Cert.BoneLoss

variable {F : FTy → Type} [FloatOps F]

/-- Joint `a`'s three columns lie inside a 63-column row, for each bone's first end joint … -/
theorem slicesA : ∀ b : Fin 20, S8192x63.Slices ![0, 3 * (jointA b).val] S8192x3 := by decide

/-- … and for its second. -/
theorem slicesB : ∀ b : Fin 20, S8192x63.Slices ![0, 3 * (jointB b).val] S8192x3 := by decide

/-- The coordinate differences of bone `b`'s end joints, for every row of the tile. -/
def diffCols (x : FVec F S8192x63 .f32) (b : Fin 20) : FVec F S8192x3 .f32 :=
  subf (extractStridedSlice S8192x3 ![0, 3 * (jointA b).val] x (slicesA b))
    (extractStridedSlice S8192x3 ![0, 3 * (jointB b).val] x (slicesB b))

/-- Bone `b`'s length in every row: the root of the row sum of the squared differences, as a column. -/
def lenCol (x : FVec F S8192x63 .f32) (b : Fin 20) : FVec F S8192x1 .f32 :=
  sqrt (shapeCast S8192x1
    (multiReduction .add [1] S8192 (mulf (diffCols x b) (diffCols x b)) 0x00000000#32 reduces_S8192x3_S8192 (.inl rfl) rfl)
    shapeCasts_S8192_S8192x1)

/-- The relative error of the predicted length of bone `b` against the true one, in every row. -/
def relCol (p g : FVec F S8192x63 .f32) (b : Fin 20) : FVec F S8192x1 .f32 :=
  divf (absf (subf (lenCol p b) (lenCol g b))) (lenCol g b)

/-- The sum of bone `b`'s relative errors over the tile's rows, as a [1, 1] array. -/
def boneSum (p g : FVec F S8192x63 .f32) (b : Fin 20) : FVec F S1x1 .f32 :=
  shapeCast S1x1 (multiReduction .add [0] S1 (relCol p g b) 0x00000000#32 reduces_S8192x1_S1 (.inl rfl) rfl) shapeCasts_S1_S1x1

/-- The [1, 1] zero the bones' sums are added onto. -/
def zero11 : FVec F S1x1 .f32 := broadcast S1x1 (Scalar.ofBits .f32 0x00000000#32)

/-- The first `k` bones' sums added in order onto zero. -/
def accUpTo (p g : FVec F S8192x63 .f32) : (k : ℕ) → k ≤ 20 → FVec F S1x1 .f32
  | 0, _ => zero11
  | k + 1, h => addf (accUpTo p g k (Nat.le_of_succ_le h)) (boneSum p g ⟨k, h⟩)

/-- The tile's total: all 20 bones. -/
def tileSum (p g : FVec F S8192x63 .f32) : FVec F S1x1 .f32 := accUpTo p g 20 le_rfl

/-! ## Read on the extended reals -/

/-- A row's 63 numbers as a joint array of one sample's 21 joints × 3 coordinates. -/
def rowJoints (x : FVec Ideal S8192x63 .f32) (r : Fin 8192) (a : Fin 21) (c : Fin 3) : EReal :=
  x (ix2 r ⟨3 * a.val + c.val, by have := a.isLt; have := c.isLt; omega⟩)

/-- The squared coordinate difference of a bone's end joints, for one sample given joint by joint. -/
def sqDiffOf (s : Fin 21 → Fin 3 → EReal) (b : Fin 20) (c : Fin 3) : EReal :=
  (s (jointA b) c - s (jointB b) c) * (s (jointA b) c - s (jointB b) c)

/-- The bone's length for one sample. -/
def lenOf (s : Fin 21 → Fin 3 → EReal) (b : Fin 20) : EReal := Ideal.sqrt (∑ c : Fin 3, sqDiffOf s b c)

/-- The relative error of the predicted bone length against the true one, for one sample of each array. -/
def relOf (sp sg : Fin 21 → Fin 3 → EReal) (b : Fin 20) : EReal :=
  Ideal.div (max (lenOf sp b - lenOf sg b) (-(lenOf sp b - lenOf sg b))) (lenOf sg b)

/-- The specification's relative error is `relOf` of the sample's joints. -/
theorem relErr_eq (p g : SJ.Idx → EReal) (i : Fin 524288) (b : Fin 20) :
    relErr p g i b = relOf (fun a c => p (ix3 i a c)) (fun a c => g (ix3 i a c)) b := rfl

theorem diffCols_apply (x : FVec Ideal S8192x63 .f32) (b : Fin 20) (r : Fin 8192) (c : Fin 3) :
    diffCols x b (ix2 r c) = rowJoints x r (jointA b) c - rowJoints x r (jointB b) c := by
  unfold diffCols rowJoints
  rw [subf_apply]
  refine congrArg₂ (· - ·) ?_ ?_
  · exact extractStridedSlice_apply _ x (slicesA b) (ix2 r c) _ fun a => by
      match a with
      | ⟨0, _⟩ => show r.val = 0 + r.val; omega
      | ⟨1, _⟩ => rfl
  · exact extractStridedSlice_apply _ x (slicesB b) (ix2 r c) _ fun a => by
      match a with
      | ⟨0, _⟩ => show r.val = 0 + r.val; omega
      | ⟨1, _⟩ => rfl

theorem lenCol_apply (x : FVec Ideal S8192x63 .f32) (b : Fin 20) (r : Fin 8192) :
    lenCol x b (ix2 r (0 : Fin 1)) = lenOf (rowJoints x r) b := by
  unfold lenCol lenOf
  show FloatOps.sqrt (shapeCast S8192x1 _ shapeCasts_S8192_S8192x1 (ix2 r (0 : Fin 1))) = _
  rw [Cert.Lib.RowOps.shapeCast_a_a1_apply (a := 8192) _ shapeCasts_S8192_S8192x1 r (0 : Fin 1)]
  rw [Cert.Lib.RowOps.rowSum_f32_apply (a := 8192) (b := 3) _ reduces_S8192x3_S8192 (.inl rfl) rfl r]
  refine congrArg Ideal.sqrt (Finset.sum_congr rfl fun c _ => ?_)
  rw [mulf_apply, diffCols_apply]
  rfl

theorem relCol_apply (p g : FVec Ideal S8192x63 .f32) (b : Fin 20) (r : Fin 8192) :
    relCol p g b (ix2 r (0 : Fin 1)) = relOf (rowJoints p r) (rowJoints g r) b := by
  unfold relCol relOf
  rw [divf_apply]
  show Ideal.div (FloatOps.absf (subf (lenCol p b) (lenCol g b) (ix2 r (0 : Fin 1)))) _ = _
  rw [subf_apply, Ideal.absf_def, lenCol_apply, lenCol_apply]

theorem boneSum_apply (p g : FVec Ideal S8192x63 .f32) (b : Fin 20) :
    boneSum p g b (ix2 (0 : Fin 1) (0 : Fin 1)) = ∑ r : Fin 8192, relOf (rowJoints p r) (rowJoints g r) b := by
  unfold boneSum
  rw [Cert.Lib.RowOps.shapeCast_a_a1_apply (a := 1) _ shapeCasts_S1_S1x1 (0 : Fin 1) (0 : Fin 1)]
  rw [Cert.Lib.TileStats.colSum_f32_apply (a := 8192) (b := 1) _ reduces_S8192x1_S1 (.inl rfl) rfl (0 : Fin 1)]
  exact Finset.sum_congr rfl fun r _ => relCol_apply p g b r

theorem accUpTo_apply (p g : FVec Ideal S8192x63 .f32) : ∀ (k : ℕ) (h : k ≤ 20),
    accUpTo p g k h (ix2 (0 : Fin 1) (0 : Fin 1))
      = ∑ b : Fin k, ∑ r : Fin 8192, relOf (rowJoints p r) (rowJoints g r) (Fin.castLE h b)
  | 0, _ => by
    show Ideal.ofBits .f32 0x00000000#32 = _
    rw [Ideal.ofBits_zero_f32, Fin.sum_univ_zero]
  | k + 1, h => by
    show accUpTo p g k _ (ix2 (0 : Fin 1) (0 : Fin 1)) + boneSum p g ⟨k, h⟩ (ix2 (0 : Fin 1) (0 : Fin 1)) = _
    rw [accUpTo_apply p g k (Nat.le_of_succ_le h), boneSum_apply]
    exact (Fin.sum_univ_castSucc
      (fun b : Fin (k + 1) => ∑ r : Fin 8192, relOf (rowJoints p r) (rowJoints g r) (Fin.castLE h b))).symm

/-- The tile's total is the sum over the 20 bones and the 8192 rows of the row's relative error. -/
theorem tileSum_apply (p g : FVec Ideal S8192x63 .f32) :
    tileSum p g (ix2 (0 : Fin 1) (0 : Fin 1)) = ∑ b : Fin 20, ∑ r : Fin 8192, relOf (rowJoints p r) (rowJoints g r) b := by
  unfold tileSum
  rw [accUpTo_apply p g 20 le_rfl]
  exact Finset.sum_congr rfl fun b _ => rfl

end Cert.KernelIdeal.Tile

end
-- ==== Proof.CaseValues.lean ====
/-
  What one grid point's body leaves behind, case by case.

  The body adds the tile's total onto the running sum kept in a [1, 1] scratch: at a core's first tile the scratch is
  first set to zero, so it ends at `0 + total`; at every other tile it ends at `previous + total`; and at a core's
  last tile the scratch's new contents are also stored, reshaped to [1, 1, 1], as the core's output block.
  The tile's total is the 20 bones' sums added in order onto zero: the body's arithmetic, cut into pieces by position,
  is that chain when the pieces are put back together.
-/
import proofs.«155267_j75093208203682_2_alg».proof.Proof.Gen.KernelIdeal.Frame
import proofs.«155267_j75093208203682_2_alg».proof.Proof.TileOps
import Idealize.ShloMosaic.Lib.Pipeline.Value
import Idealize.ShloMosaic.Lib.Tactic

noncomputable section

open Idealize.ShloMosaic Idealize.ShloMosaic.TcCoe Idealize.SL.Sem

namespace Cert.KernelIdeal.CaseValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile's total of the two loaded blocks. -/
def tileOf (x0 x1 : Vec F S8192x63 .f32) : FVec F S1x1 .f32 := Tile.tileSum (k0_pay4 x0) (k0_pay5 x1)

/-- The body's arithmetic, its positional pieces put back together, is the chain of the 20 bones' sums. -/
theorem chain_eq (x0 x1 : Vec F S8192x63 .f32) :
    k0_pay24 (k0_pay4 x0) (k0_pay5 x1) (k0_pay21 (k0_pay4 x0) (k0_pay5 x1) (k0_pay19 (k0_pay4 x0) (k0_pay5 x1) (k0_pay16 (k0_pay4 x0) (k0_pay5 x1) (k0_pay13 (k0_pay4 x0) (k0_pay5 x1) (k0_pay11 (k0_pay4 x0) (k0_pay5 x1) (k0_pay8 (k0_pay4 x0) (k0_pay5 x1) (k0_pay6 x0 x1) (k0_pay7 x0 x1)) (k0_pay9 (k0_pay5 x1)) (k0_pay10 (k0_pay4 x0))) (k0_pay12 (k0_pay4 x0))) (k0_pay14 (k0_pay4 x0)) (k0_pay15 (k0_pay5 x1))) (k0_pay17 (k0_pay4 x0)) (k0_pay18 (k0_pay5 x1))) (k0_pay20 (k0_pay4 x0) (k0_pay5 x1))) (k0_pay22 (k0_pay5 x1)) (k0_pay23 (k0_pay4 x0))
      = tileOf x0 x1 := rfl

/-- A tile that is neither a core's first nor its last: the scratch ends at its previous contents plus the tile's total. -/
theorem sout_B (c : Dev nD) (i : grid0.Coords) (arg2 : Memref sig .tc .vmem S8192x63 .f32) (harg2 : arg2.IsWhole) (arg3 : Memref sig .tc .vmem S8192x63 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 x1 : Vec F S8192x63 .f32) (xs0 : Vec F S1x1 .f32) :
    sout0_B_0 c i arg2 harg2 arg3 harg3 arg4 harg4 arg5 harg5 hc0 hc1 x0 x1 xs0 = addf xs0 (tileOf x0 x1) := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1x1) hz2]
  simp only [View.readAt_eq_ld, harg2.read_unread, harg3.read_unread, harg5.read_unread,
    View.ld_unit_zero (S := S8192x63) hz2, View.ld_unit_zero (S := S1x1) hz2]
  rw [chain_eq]
  unfold k0_pay1
  simp only [shapeCast_self]

/-- A core's first tile: the scratch is zeroed first, and ends at zero plus the tile's total. -/
theorem sout_A (c : Dev nD) (i : grid0.Coords) (arg2 : Memref sig .tc .vmem S8192x63 .f32) (harg2 : arg2.IsWhole) (arg3 : Memref sig .tc .vmem S8192x63 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 x1 : Vec F S8192x63 .f32) :
    sout0_A_0 c i arg2 harg2 arg3 harg3 arg4 harg4 arg5 harg5 hc0 hc1 x0 x1 = addf Tile.zero11 (tileOf x0 x1) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread,
    View.ld_unit_zero (S := S8192x63) hz2]
  rw [chain_eq]
  unfold k0_pay1 k0_pay3
  simp only [shapeCast_self]
  rfl

/-- A core's last tile: the scratch ends at its previous contents plus the tile's total … -/
theorem sout_C (c : Dev nD) (i : grid0.Coords) (arg2 : Memref sig .tc .vmem S8192x63 .f32) (harg2 : arg2.IsWhole) (arg3 : Memref sig .tc .vmem S8192x63 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 x1 : Vec F S8192x63 .f32) (xs0 : Vec F S1x1 .f32) :
    sout0_C_0 c i arg2 harg2 arg3 harg3 arg4 harg4 arg5 harg5 hc0 hc1 x0 x1 xs0 = addf xs0 (tileOf x0 x1) := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1x1) hz2]
  simp only [View.readAt_eq_ld, harg2.read_unread, harg3.read_unread, harg5.read_unread,
    View.ld_unit_zero (S := S8192x63) hz2, View.ld_unit_zero (S := S1x1) hz2]
  rw [chain_eq]
  unfold k0_pay1
  simp only [shapeCast_self]

/-- … and the output block is that sum, reshaped to [1, 1, 1]. -/
theorem out_C (c : Dev nD) (i : grid0.Coords) (arg2 : Memref sig .tc .vmem S8192x63 .f32) (harg2 : arg2.IsWhole) (arg3 : Memref sig .tc .vmem S8192x63 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 x1 : Vec F S8192x63 .f32) (xs0 : Vec F S1x1 .f32) :
    out0_C_2 c i arg2 harg2 arg3 harg3 arg4 harg4 arg5 harg5 hc0 hc1 x0 x1 xs0 = shapeCast S1x1x1 (addf xs0 (tileOf x0 x1)) shapeCasts_S1x1_S1x1x1 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x1x1) hz3, View.readCov_unit_zero (S := S1x1) _ hz2]
  simp only [View.readAt_eq_ld, harg2.read_unread, harg3.read_unread, harg5.read_unread,
    View.ld_unit_zero (S := S8192x63) hz2, View.ld_unit_zero (S := S1x1) hz2]
  rw [chain_eq]
  unfold k0_pay2 k0_pay1
  simp only [shapeCast_self]

end Cert.KernelIdeal.CaseValue

end
-- ==== Proof.Accum.lean ====
/-
  The running sum across grid points.

  The 64 grid points are walked in order: points 0 … 31 are the first core's 32 tiles, points 32 … 63 the second
  core's. After point `n` the scratch holds zero plus the totals of the tiles of `n`'s core up to `n`, added in order;
  at a core's last tile (`n % 32 = 31`) the output block is that sum reshaped to [1, 1, 1]. Both by induction on the
  point. On the extended reals the scratch's one entry after point `n` is the sum of the tile totals of the points
  `32 (n / 32), …, n`.
-/
import proofs.«155267_j75093208203682_2_alg».proof.Proof.CaseValues

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.CaseValue

variable {F : FTy → Type} [FloatOps F]
variable (m : (ℓ : Loc nD τ sig) → Buf (Elt F) ℓ)

/-- The total of the tile fetched at point `t`. -/
def tileAt (c : Dev nD) (t : Fin cfg0.N) : FVec F S1x1 .f32 := tileOf (iblk m c 0 t) (iblk m c 1 t)

/-- The running sum after point `n`: restarted from zero at each core's first tile. -/
def accAt (c : Dev nD) : (n : ℕ) → n < cfg0.N → FVec F S1x1 .f32
  | 0, h => addf Tile.zero11 (tileAt m c ⟨0, h⟩)
  | n + 1, h =>
    if (n + 1) % 32 = 0 then addf Tile.zero11 (tileAt m c ⟨n + 1, h⟩)
    else addf (accAt c n (Nat.lt_of_succ_lt h)) (tileAt m c ⟨n + 1, h⟩)

theorem accAt_succ_first (c : Dev nD) (n : ℕ) (h : n + 1 < cfg0.N) (h0 : (n + 1) % 32 = 0) :
    accAt m c (n + 1) h = addf Tile.zero11 (tileAt m c ⟨n + 1, h⟩) := by
  show (if (n + 1) % 32 = 0 then _ else _) = _
  rw [if_pos h0]

theorem accAt_succ_later (c : Dev nD) (n : ℕ) (h : n + 1 < cfg0.N) (h0 : ¬(n + 1) % 32 = 0) :
    accAt m c (n + 1) h = addf (accAt m c n (Nat.lt_of_succ_lt h)) (tileAt m c ⟨n + 1, h⟩) := by
  show (if (n + 1) % 32 = 0 then _ else _) = _
  rw [if_neg h0]

/-- What the scratch holds after point `n` is the running sum. -/
theorem scratch_eq (c : Dev nD) : ∀ (n : ℕ) (h : n < cfg0.N), (outsAt0 m c n h).2 = accAt m c n h
  | 0, h =>
    (congrArg Prod.snd (outsAt0_A m c ⟨0, h⟩ (Nat.zero_mod 32) (by show ¬0 % 32 = 31; decide))).trans
      (sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        scM0_0 (Memref.isWhole_whole _) ((hcond0_0 ⟨0, h⟩).mpr (Nat.zero_mod 32))
        (fun hh => absurd ((hcond0_1 ⟨0, h⟩).mp hh) (by show ¬0 % 32 = 31; decide)) (iblk m c 0 ⟨0, h⟩) (iblk m c 1 ⟨0, h⟩))
  | n + 1, h => by
    by_cases h0 : (n + 1) % 32 = 0
    · have h1 : ¬(n + 1) % 32 = 31 := by omega
      rw [accAt_succ_first m c n h h0]
      exact (congrArg Prod.snd (outsAt0_A m c ⟨n + 1, h⟩ h0 h1)).trans
        (sout_A c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) ((hcond0_0 ⟨n + 1, h⟩).mpr h0)
          (fun hh => h1 ((hcond0_1 ⟨n + 1, h⟩).mp hh)) (iblk m c 0 ⟨n + 1, h⟩) (iblk m c 1 ⟨n + 1, h⟩))
    · rw [accAt_succ_later m c n h h0, ← scratch_eq c n (Nat.lt_of_succ_lt h)]
      by_cases h1 : (n + 1) % 32 = 31
      · exact (congrArg Prod.snd (outsAt0_C m c ⟨n + 1, h⟩ h0 h1)).trans
          (sout_C c (grid0.coords ⟨n + 1, h⟩) (ms0_0 ⟨n + 1, h⟩) (hs0_0 ⟨n + 1, h⟩) (ms0_1 ⟨n + 1, h⟩) (hs0_1 ⟨n + 1, h⟩)
            (ms0_2 ⟨n + 1, h⟩) (hs0_2 ⟨n + 1, h⟩) scM0_0 (Memref.isWhole_whole _) (fun hh => h0 ((hcond0_0 ⟨n + 1, h⟩).mp hh))
            ((hcond0_1 ⟨n + 1, h⟩).mpr h1) (iblk m c 0 ⟨n + 1, h⟩) (iblk m c 1 ⟨n + 1, h⟩)
            (outsAt0 m c n (Nat.lt_of_succ_lt h)).2)
      · exact (congrArg Prod.snd (outsAt0_B m c ⟨n + 1, h⟩ h0 h1)).trans
          (sout_B c (grid0.coords ⟨n + 1, h⟩) (ms0_0 ⟨n + 1, h⟩) (hs0_0 ⟨n + 1, h⟩) (ms0_1 ⟨n + 1, h⟩) (hs0_1 ⟨n + 1, h⟩)
            (ms0_2 ⟨n + 1, h⟩) (hs0_2 ⟨n + 1, h⟩) scM0_0 (Memref.isWhole_whole _) (fun hh => h0 ((hcond0_0 ⟨n + 1, h⟩).mp hh))
            (fun hh => h1 ((hcond0_1 ⟨n + 1, h⟩).mp hh)) (iblk m c 0 ⟨n + 1, h⟩) (iblk m c 1 ⟨n + 1, h⟩)
            (outsAt0 m c n (Nat.lt_of_succ_lt h)).2)

/-- At a core's last tile the output block is the running sum reshaped to [1, 1, 1]. -/
theorem out_eq (c : Dev nD) : ∀ (n : ℕ) (h : n < cfg0.N), n % 32 = 31 →
    (outsAt0 m c n h).1 = shapeCast S1x1x1 (accAt m c n h) shapeCasts_S1x1_S1x1x1
  | 0, h, h1 => absurd h1 (by show ¬0 % 32 = 31; decide)
  | n + 1, h, h1 => by
    have h0 : ¬(n + 1) % 32 = 0 := by omega
    rw [accAt_succ_later m c n h h0, ← scratch_eq m c n (Nat.lt_of_succ_lt h)]
    exact (congrArg Prod.fst (outsAt0_C m c ⟨n + 1, h⟩ h0 h1)).trans
      (out_C c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) (fun hh => h0 ((hcond0_0 ⟨n + 1, h⟩).mp hh))
        ((hcond0_1 ⟨n + 1, h⟩).mpr h1) (iblk m c 0 ⟨n + 1, h⟩) (iblk m c 1 ⟨n + 1, h⟩)
        (outsAt0 m c n (Nat.lt_of_succ_lt h)).2)

end Cert.KernelIdeal.Accum

/-! ## On the extended reals -/

namespace Cert.KernelIdeal.Accum

open Cert.KernelIdeal Cert.KernelIdeal.Gen Cert.KernelIdeal.CaseValue

variable (m : (ℓ : Loc nD τ sig) → Buf (Elt Ideal) ℓ)

/-- The one entry of the total of the tile fetched at point `t` (zero beyond the grid). -/
def tileVal (c : Dev nD) (t : ℕ) : EReal :=
  if h : t < cfg0.N then tileAt m c ⟨t, h⟩ (ix2 (0 : Fin 1) (0 : Fin 1)) else 0

theorem tileVal_of_lt (c : Dev nD) (t : ℕ) (h : t < cfg0.N) :
    tileVal m c t = tileAt m c ⟨t, h⟩ (ix2 (0 : Fin 1) (0 : Fin 1)) := dif_pos h

/-- The running sum's entry after point `n`: the tile totals of `n`'s core up to `n`. -/
theorem accAt_apply (c : Dev nD) : ∀ (n : ℕ) (h : n < cfg0.N),
    accAt m c n h (ix2 (0 : Fin 1) (0 : Fin 1)) = ∑ j ∈ Finset.range (n % 32 + 1), tileVal m c (32 * (n / 32) + j)
  | 0, h => by
    show Ideal.ofBits .f32 0x00000000#32 + tileAt m c ⟨0, h⟩ (ix2 (0 : Fin 1) (0 : Fin 1)) = _
    rw [Ideal.ofBits_zero_f32, zero_add]
    show _ = ∑ j ∈ Finset.range 1, tileVal m c (32 * (0 / 32) + j)
    rw [Finset.sum_range_one, tileVal_of_lt m c _ h]
  | n + 1, h => by
    by_cases h0 : (n + 1) % 32 = 0
    · rw [accAt_succ_first m c n h h0]
      show Ideal.ofBits .f32 0x00000000#32 + tileAt m c ⟨n + 1, h⟩ (ix2 (0 : Fin 1) (0 : Fin 1)) = _
      rw [Ideal.ofBits_zero_f32, zero_add, h0, Finset.sum_range_one, ← tileVal_of_lt m c (n + 1) h]
      refine congrArg (tileVal m c) ?_
      omega
    · rw [accAt_succ_later m c n h h0]
      show accAt m c n _ (ix2 (0 : Fin 1) (0 : Fin 1)) + tileAt m c ⟨n + 1, h⟩ (ix2 (0 : Fin 1) (0 : Fin 1)) = _
      rw [accAt_apply c n (Nat.lt_of_succ_lt h), ← tileVal_of_lt m c (n + 1) h]
      have e1 : (n + 1) % 32 = n % 32 + 1 := by omega
      have e2 : (n + 1) / 32 = n / 32 := by omega
      rw [e1, e2, Finset.sum_range_succ (fun j => tileVal m c (32 * (n / 32) + j)) (n % 32 + 1)]
      refine congrArg (fun z => _ + tileVal m c z) ?_
      omega

end Cert.KernelIdeal.Accum

end
-- ==== Proof.Blocks.lean ====
/-
  From the grid points to the program's result.

  Window blocks: at point `t` the two input windows hold rows `8192 t … 8192 t + 8191` of the two [524288, 63] arrays,
  which the host made from the [524288, 21, 3] arguments by a reshape (sample `i`, column `3a + c` is joint `a`,
  coordinate `c`). The output array [2, 1, 1] is written back only at each core's last tile, point `32 k + 31` writing
  entry `k`; the two write-backs cover it, so it ends holding, at `k`, core `k`'s running sum after its last tile.
  After the region the host sums the two entries onto zero and divides by the float 10485760.
-/
import proofs.«155267_j75093208203682_2_alg».proof.Proof.Accum
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.CaseValue Cert.KernelIdeal.Accum

variable {F : FTy → Type} [FloatOps F]
variable (m : (ℓ : Loc nD τ sig) → Buf (Elt F) ℓ) (ρ : Dev nD → PrngReg)

/-- The printed index maps over the grid: the inputs' block row is the point's position, the output's entry the
    point's core. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 32 ∧ win0_2.index t (1 : Fin 3) = 0 ∧ win0_2.index t (2 : Fin 3) = 0 :=
  (by decide +kernel : ∀ t : Fin grid0.N, _)

/-- Row `r`, column `k` of the first input's block at point `t` is row `8192 t + r` of its array. -/
theorem iblk0_apply (c : Dev nD) (t : Fin cfg0.N) (r : Fin 8192) (k : Fin 63) (hr : t.val * 8192 + r.val < 524288) :
    (iblk m c 0 t : Vec F S8192x63 .f32) (ix2 r k) = (V m c main_v0 : S524288x63.Idx → F .f32) (ix2 ⟨t.val * 8192 + r.val, hr⟩ k) := by
  unfold iblk
  rw [View.read_apply]
  show V m c main_v0 _ = V m c main_v0 _
  refine congrArg (V m c main_v0) (funext fun a => Fin.ext ?_)
  obtain ⟨e0, e1, -⟩ := idx_facts t
  match a with
  | ⟨0, _⟩ => show win0_0.index t (0 : Fin 2) * 8192 + 1 * r.val = t.val * 8192 + r.val; rw [e0]; omega
  | ⟨1, _⟩ => show win0_0.index t (1 : Fin 2) * 63 + 1 * k.val = k.val; rw [e1]; omega

/-- The same for the second input. -/
theorem iblk1_apply (c : Dev nD) (t : Fin cfg0.N) (r : Fin 8192) (k : Fin 63) (hr : t.val * 8192 + r.val < 524288) :
    (iblk m c 1 t : Vec F S8192x63 .f32) (ix2 r k) = (V m c main_v1 : S524288x63.Idx → F .f32) (ix2 ⟨t.val * 8192 + r.val, hr⟩ k) := by
  unfold iblk
  rw [View.read_apply]
  show V m c main_v1 _ = V m c main_v1 _
  refine congrArg (V m c main_v1) (funext fun a => Fin.ext ?_)
  obtain ⟨-, -, e0, e1, -⟩ := idx_facts t
  match a with
  | ⟨0, _⟩ => show win0_1.index t (0 : Fin 2) * 8192 + 1 * r.val = t.val * 8192 + r.val; rw [e0]; omega
  | ⟨1, _⟩ => show win0_1.index t (1 : Fin 2) * 63 + 1 * k.val = k.val; rw [e1]; omega

/-- The first window's array is the first argument reshaped to samples × 63. -/
theorem V_v0 (c : Dev nD) : (V m c main_v0 : S524288x63.Idx → F .f32)
    = shapeCast S524288x63 (m ((c : Thread nD τ).loc main_arg0)) shapeCasts_S524288x21x3_S524288x63 := by
  show StableHlo.after hostOps0 (fun b => m (c, b)) (Proc.devRef .tc main_v0) = _
  after_results
  rfl

/-- The second window's array is the second argument reshaped. -/
theorem V_v1 (c : Dev nD) : (V m c main_v1 : S524288x63.Idx → F .f32)
    = shapeCast S524288x63 (m ((c : Thread nD τ).loc main_arg1)) shapeCasts_S524288x21x3_S524288x63 := by
  show StableHlo.after hostOps0 (fun b => m (c, b)) (Proc.devRef .tc main_v1) = _
  after_results
  rfl

/-- The reshape puts joint `a`, coordinate `cc` of sample `i` at column `3a + cc` of row `i`. -/
theorem reshape_apply {α : Type} (x : S524288x21x3.Idx → α) (i : Fin 524288) (a : Fin 21) (cc : Fin 3)
    (hk : 3 * a.val + cc.val < 63) :
    shapeCast S524288x63 x shapeCasts_S524288x21x3_S524288x63 (ix2 i ⟨3 * a.val + cc.val, hk⟩) = x (ix3 i a cc) :=
  shapeCast_apply x _ _ _ (by
    rw [Shape.rowMajor_val_three, Shape.rowMajor_val_two]
    show (i.val * 21 + a.val) * 3 + cc.val = i.val * 63 + (3 * a.val + cc.val)
    omega)

/-- A [1, 1] array reshaped to [1, 1, 1] reads its one entry everywhere. -/
theorem shapeCast_111 {α : Type} (v : S1x1.Idx → α) (y : S1x1x1.Idx) :
    shapeCast S1x1x1 v shapeCasts_S1x1_S1x1x1 y = v (ix2 (0 : Fin 1) (0 : Fin 1)) :=
  shapeCast_apply v _ y (ix2 (0 : Fin 1) (0 : Fin 1)) (by
    have h0 : (y 0).val < 1 := (y 0).isLt
    have h1 : (y 1).val < 1 := (y 1).isLt
    have h2 : (y 2).val < 1 := (y 2).isLt
    rw [Shape.rowMajor_val_two, Shape.rowMajor_val_three]
    show 0 * 1 + 0 = ((y 0).val * 1 + (y 1).val) * 1 + (y 2).val
    omega)

/-- The running sum depends on the point only. -/
theorem accAt_congr (c : Dev nD) {n n' : ℕ} (e : n = n') (h : n < cfg0.N) (h' : n' < cfg0.N) :
    accAt m c n h = accAt m c n' h' := by subst e; rfl

/-- What the output array ends holding: at entry `k`, core `k`'s running sum after its last tile. -/
def coreOut (c : Dev nD) : Buf (Elt F) ((c : Thread nD τ).loc main_v2) := fun j =>
  accAt m c (32 * (j 0).val + 31)
    (by have h2 : (j 0).val < 2 := (j 0).isLt; have hN : cfg0.N = 64 := N_0; omega) (ix2 (0 : Fin 1) (0 : Fin 1))

/-- A write-back (only at a core's last tile) writes that core's entry. -/
theorem flushed_eq (c : Dev nD) (t : Fin cfg0.N) (hf : (cfg0.win 2).flush t = true) :
    (dats m 0 c).flushed 2 t = ((cfg0.win 2).blk t).view.read (Elt F) (coreOut m c) := by
  have h31 : t.val % 32 = 31 := (flush0_2 t).mp hf
  show (cfg0.win 2).cut (grid0.coords t) ((dats m 0 c).after 2 t) = _
  rw [after0_2, out_eq m c t.val t.isLt h31]
  obtain ⟨-, -, -, -, e0, e1, e2⟩ := idx_facts t
  funext y
  rw [View.read_apply]
  show shapeCast S1x1x1 (accAt m c t.val t.isLt) shapeCasts_S1x1_S1x1x1 y = coreOut m c (((cfg0.win 2).blk t).view.emb y)
  have h0 : (y 0).val < 1 := (y 0).isLt
  have h1 : (y 1).val < 1 := (y 1).isLt
  have h2 : (y 2).val < 1 := (y 2).isLt
  have hy : ((((cfg0.win 2).blk t).view.emb y) 0).val = t.val / 32 := by
    show win0_2.index t (0 : Fin 3) * 1 + 1 * (y 0).val = _
    rw [e0]; omega
  unfold coreOut
  rw [accAt_congr m c (show 32 * ((((cfg0.win 2).blk t).view.emb y) 0).val + 31 = t.val by rw [hy]; omega) _ t.isLt]
  exact shapeCast_111 (accAt m c t.val t.isLt) y

/-- An entry of the output array is in point `t`'s block iff each coordinate is in the block's range. -/
theorem mem_blk (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v2).slice (win0_2.rect t)).set ↔ _
  rw [View.set_slice_whole, Rect.mem_set_unit]
  exact Iff.rfl

/-- The two write-backs cover the output array: it ends holding each core's sum. -/
theorem final_out (c : Dev nD) : (dats m 0 c).arrAt 2 cfg0.N = coreOut m c :=
  (dats m 0 c).arrAt_eq_of_cover 2 (coreOut m c) (flushed_eq m c) fun i => by
    have hi0 : (i 0).val < 2 := (i 0).isLt
    have hi1 : (i 1).val < 1 := (i 1).isLt
    have hi2 : (i 2).val < 1 := (i 2).isLt
    have hN : cfg0.N = 64 := N_0
    have ht : 32 * (i 0).val + 31 < cfg0.N := by omega
    refine ⟨⟨32 * (i 0).val + 31, ht⟩, (flush0_2 _).mpr (by show (32 * (i 0).val + 31) % 32 = 31; omega), ?_⟩
    rw [mem_blk]
    obtain ⟨-, -, -, -, e0, e1, e2⟩ := idx_facts ⟨32 * (i 0).val + 31, ht⟩
    intro a
    match a with
    | ⟨0, _⟩ =>
      show win0_2.index ⟨32 * (i 0).val + 31, ht⟩ (0 : Fin 3) * 1 ≤ (i 0).val ∧ (i 0).val < win0_2.index ⟨32 * (i 0).val + 31, ht⟩ (0 : Fin 3) * 1 + 1
      rw [e0]; show (32 * (i 0).val + 31) / 32 * 1 ≤ (i 0).val ∧ (i 0).val < (32 * (i 0).val + 31) / 32 * 1 + 1; omega
    | ⟨1, _⟩ =>
      show win0_2.index ⟨32 * (i 0).val + 31, ht⟩ (1 : Fin 3) * 1 ≤ (i 1).val ∧ (i 1).val < win0_2.index ⟨32 * (i 0).val + 31, ht⟩ (1 : Fin 3) * 1 + 1
      rw [e1]; omega
    | ⟨2, _⟩ =>
      show win0_2.index ⟨32 * (i 0).val + 31, ht⟩ (2 : Fin 3) * 1 ≤ (i 2).val ∧ (i 2).val < win0_2.index ⟨32 * (i 0).val + 31, ht⟩ (2 : Fin 3) * 1 + 1
      rw [e2]; omega

/-- The program's result as the host computes it from the output array: the two entries summed onto zero, divided
    by the float 10485760. -/
def result (c : Dev nD) : Buf (Elt F) ((c : Thread nD τ).loc main_v4) :=
  Host.divf (Host.reduceAdd (coreOut m c) (constant S_ .f32 0x00000000#32) reducesTo_S2x1x1_S_d0_1_2 h_S_)
    (constant S_ .f32 0x4B200000#32)

/-- The host operations after the region leave the result at that term. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  rw [(Pipeline.withArrays_arr spec0 launch0.win.arr_inj c _ _ 2).trans (final_out m c)]
  rfl

/-- The run, read: the result at the host's term of the cores' sums, the arguments unchanged. -/
theorem run : θ_run defs (onTc (τ := τ) (main (F := F))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Blocks

end
-- ==== Proof.KernelValue.lean ====
/-
  The kernel's result on the extended reals is the mean relative bone-length error.

  Row `r` of the blocks fetched at point `t` is sample `8192 t + r` of the two arguments (the reshape regroups its 63
  numbers as 21 joints × 3 coordinates), so the tile's total is the sum over bones and over its 8192 samples of the
  relative error. Core `k`'s running sum after its last tile is the sum of the totals of tiles `32 k … 32 k + 31`; the two
  cores together are all 64 tiles; and 64 tiles of 8192 samples are the 524288 samples. Only commutativity and
  associativity of addition on the extended reals are used, so nothing is asked of the inputs.
-/
import proofs.«155267_j75093208203682_2_alg».proof.Proof.Blocks

noncomputable section

open Idealize.ShloMosaic Idealize.ShloMosaic.TcCoe Idealize.SL.Sem Idealize.ShloMosaic.ValueIdx

namespace Cert.KernelIdeal.Value

open Cert.KernelIdeal Cert.KernelIdeal.Gen Cert.KernelIdeal.CaseValue Cert.KernelIdeal.Accum Cert.KernelIdeal.Blocks
open Cert.BoneLoss Cert.Lib.TileStats

variable (m : (ℓ : Loc nD τ sig) → Buf (Elt Ideal) ℓ) (ρ : Dev nD → PrngReg)

/-- The loaded block, passed through the body's identity reshape, read as joints × coordinates. -/
theorem rowJoints_pay4 (x : Vec Ideal S8192x63 .f32) (r : Fin 8192) (a : Fin 21) (cc : Fin 3) (hk : 3 * a.val + cc.val < 63) :
    Tile.rowJoints (k0_pay4 x) r a cc = x (ix2 r ⟨3 * a.val + cc.val, hk⟩) := by
  unfold Tile.rowJoints k0_pay4
  simp only [shapeCast_self]

theorem rowJoints_pay5 (x : Vec Ideal S8192x63 .f32) (r : Fin 8192) (a : Fin 21) (cc : Fin 3) (hk : 3 * a.val + cc.val < 63) :
    Tile.rowJoints (k0_pay5 x) r a cc = x (ix2 r ⟨3 * a.val + cc.val, hk⟩) := by
  unfold Tile.rowJoints k0_pay5
  simp only [shapeCast_self]

/-- Row `r` of the first block fetched at point `t` is sample `8192 t + r` of the first argument. -/
theorem rowJoints_blk0 (c : Dev nD) (t : Fin cfg0.N) (r : Fin 8192) (i : Fin 524288) (hi : i.val = t.val * 8192 + r.val) :
    Tile.rowJoints (k0_pay4 (iblk m c 0 t)) r = fun a cc => m ((c : Thread nD τ).loc main_arg0) (ix3 i a cc) := by
  funext a cc
  have hk : 3 * a.val + cc.val < 63 := by have := a.isLt; have := cc.isLt; omega
  have hr : t.val * 8192 + r.val < 524288 := hi ▸ i.isLt
  obtain rfl : i = ⟨t.val * 8192 + r.val, hr⟩ := Fin.ext hi
  refine (rowJoints_pay4 (iblk m c 0 t) r a cc hk).trans ?_
  refine (iblk0_apply m c t r ⟨3 * a.val + cc.val, hk⟩ hr).trans ?_
  rw [V_v0]
  exact reshape_apply _ _ a cc hk

/-- The same for the second block and argument. -/
theorem rowJoints_blk1 (c : Dev nD) (t : Fin cfg0.N) (r : Fin 8192) (i : Fin 524288) (hi : i.val = t.val * 8192 + r.val) :
    Tile.rowJoints (k0_pay5 (iblk m c 1 t)) r = fun a cc => m ((c : Thread nD τ).loc main_arg1) (ix3 i a cc) := by
  funext a cc
  have hk : 3 * a.val + cc.val < 63 := by have := a.isLt; have := cc.isLt; omega
  have hr : t.val * 8192 + r.val < 524288 := hi ▸ i.isLt
  obtain rfl : i = ⟨t.val * 8192 + r.val, hr⟩ := Fin.ext hi
  refine (rowJoints_pay5 (iblk m c 1 t) r a cc hk).trans ?_
  refine (iblk1_apply m c t r ⟨3 * a.val + cc.val, hk⟩ hr).trans ?_
  rw [V_v1]
  exact reshape_apply _ _ a cc hk

theorem pos524288 : 0 < 524288 := by norm_num

/-- The tile fetched at point `t`: its total is the relative errors of its 8192 samples, all bones. -/
theorem tileAt_apply (c : Dev nD) (t : Fin cfg0.N) :
    tileAt m c t (ix2 (0 : Fin 1) (0 : Fin 1))
      = ∑ b : Fin 20, ∑ r : Fin 8192,
          relErr (m ((c : Thread nD τ).loc main_arg0)) (m ((c : Thread nD τ).loc main_arg1)) (tileRow 524288 8192 pos524288 t.val r) b := by
  have hN : cfg0.N = 64 := N_0
  have ht : t.val < 64 := hN ▸ t.isLt
  unfold tileAt tileOf
  rw [Tile.tileSum_apply]
  refine Finset.sum_congr rfl fun b _ => Finset.sum_congr rfl fun r _ => ?_
  have hi : (tileRow 524288 8192 pos524288 t.val r).val = t.val * 8192 + r.val :=
    tileRow_val pos524288 t.val r (by have := r.isLt; omega)
  rw [Tile.relErr_eq, rowJoints_blk0 m c t r _ hi, rowJoints_blk1 m c t r _ hi]

/-- All 64 tiles' totals are the sum over every sample and bone. -/
theorem tiles_total (c : Dev nD) :
    ∑ t ∈ Finset.range 64, tileVal m c t
      = ∑ i : Fin 524288, ∑ b : Fin 20, relErr (m ((c : Thread nD τ).loc main_arg0)) (m ((c : Thread nD τ).loc main_arg1)) i b := by
  have hN : cfg0.N = 64 := N_0
  rw [sum_tiles 64 8192 524288 (by norm_num) pos524288
    (fun i => ∑ b : Fin 20, relErr (m ((c : Thread nD τ).loc main_arg0)) (m ((c : Thread nD τ).loc main_arg1)) i b)]
  refine Finset.sum_congr rfl fun t ht => ?_
  have ht' : t < cfg0.N := by rw [hN]; exact Finset.mem_range.mp ht
  rw [tileVal_of_lt m c t ht', tileAt_apply, Finset.sum_comm]

/-- The output array's contents as a plain array of extended reals. -/
def coreVals (c : Dev nD) : S2x1x1.Idx → EReal := coreOut m c

/-- Core `k`'s entry of the output array: the totals of its 32 tiles. -/
theorem coreOut_apply (c : Dev nD) (k : Fin 2) :
    coreVals m c (ix3 k (0 : Fin 1) (0 : Fin 1)) = ∑ j ∈ Finset.range 32, tileVal m c (32 * k.val + j) := by
  have hk : k.val < 2 := k.isLt
  have hN : cfg0.N = 64 := N_0
  unfold coreVals coreOut
  show accAt m c (32 * k.val + 31) _ (ix2 (0 : Fin 1) (0 : Fin 1)) = _
  rw [accAt_apply m c (32 * k.val + 31) (by omega)]
  have e1 : (32 * k.val + 31) % 32 + 1 = 32 := by omega
  have e2 : (32 * k.val + 31) / 32 = k.val := by omega
  rw [e1, e2]

/-- The entries of a [2, 1, 1] array are its two first-axis positions. -/
def idxEquiv : S2x1x1.Idx ≃ Fin 2 where
  toFun j := j 0
  invFun k := ix3 k (0 : Fin 1) (0 : Fin 1)
  left_inv j := by
    funext a
    match a with
    | ⟨0, _⟩ => rfl
    | ⟨1, _⟩ => exact Fin.ext (by have : (j 1).val < 1 := (j 1).isLt; show 0 = (j 1).val; omega)
    | ⟨2, _⟩ => exact Fin.ext (by have : (j 2).val < 1 := (j 2).isLt; show 0 = (j 2).val; omega)
  right_inv k := rfl

/-- The two cores' sums together are all 64 tiles'. -/
theorem cores_total (c : Dev nD) :
    ∑ j : S2x1x1.Idx, coreVals m c j = ∑ t ∈ Finset.range 64, tileVal m c t := by
  rw [← Equiv.sum_comp idxEquiv.symm (coreVals m c), Fin.sum_univ_two]
  show coreVals m c (ix3 (0 : Fin 2) (0 : Fin 1) (0 : Fin 1)) + coreVals m c (ix3 (1 : Fin 2) (0 : Fin 1) (0 : Fin 1)) = _
  rw [coreOut_apply, coreOut_apply, show (64 : ℕ) = 32 + 32 from rfl, Finset.sum_range_add]
  refine congrArg₂ (· + ·) (Finset.sum_congr rfl fun j _ => congrArg (tileVal m c) ?_)
    (Finset.sum_congr rfl fun j _ => congrArg (tileVal m c) ?_)
  · show 32 * 0 + j = j; omega
  · show 32 * 1 + j = 32 + j; omega

/-- THE KERNEL'S VALUE: the host's term of the cores' sums is the specification's mean. -/
theorem result_eq (c : Dev nD) :
    result m c = fun _ => meanRel (m ((c : Thread nD τ).loc main_arg0)) (m ((c : Thread nD τ).loc main_arg1)) := by
  funext j
  unfold result meanRel
  show Ideal.div (Ideal.hostReduceAdd reducesTo_S2x1x1_S_d0_1_2 (coreVals m c) (Ideal.ofBits .f32 0x00000000#32) j)
    (Ideal.ofBits .f32 0x4B200000#32) = _
  rw [Ideal.hostReduceAdd_total reducesTo_S2x1x1_S_d0_1_2 (fun b => b.elim0), Ideal.ofBits_zero_f32, zero_add,
    cores_total, tiles_total]

/-- The run, read: the result at the mean relative bone-length error of the arguments, the arguments unchanged. -/
theorem run : θ_run defs (onTc (τ := τ) (main (F := Ideal))) ⟨m, fun _ => 0, ρ⟩ fun r => ∀ c : Dev nD,
      r.2.mem ((c : Thread nD τ).loc main_v4)
        = (fun _ => meanRel (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq m c), (h c).2⟩) (Blocks.run (F := Ideal) m ρ)

end Cert.KernelIdeal.Value

end
-- ==== Proof.RefRun.lean ====
/-
  The reference program's run, read back as one composed term.

  @main of the reference is a straight line of 55 host operations: the two constant tables of bone end joints, each
  normalised (a negative entry would have 21 added) and made a column; four gathers of the joint arrays along the joint
  axis; two coordinate differences; the outlined function @norm run twice (square, sum over the three coordinates,
  square root), its operations listed at each call over that call's buffers; the relative error, its total sum and the
  division by the number of terms. Every weakly fair execution ends with the result buffer at the composed term
  `out` of the two argument arrays, which are left unchanged. The term is stated through small named pieces
  (`normIdx`, `gath`, `diff`, `nrm`, `relv`) and is read at an index in a separate module.
-/
import proofs.«155267_j75093208203682_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-! ## The pieces of the composed term -/

/-- The first end joints' table, as the constant's buffer holds it. -/
def tabA : IVec S20 32 := fun i => lit0 (S20.rowMajor i)
/-- The second end joints' table. -/
def tabB : IVec S20 32 := fun i => lit1 (S20.rowMajor i)

/-- A table of joint numbers normalised as the program does it — an entry below zero has 21 added — and made a
    column of start indices. -/
def normIdx (tab : IVec S20 32) : IVec S20x1 32 :=
  broadcastInDim S20x1 ![0] bcast_S20_S20x1_0
    (select (cmpi .slt tab (broadcastInDim S20 ![] bcast_S_S20 (constantI S_ 32 0#32)))
      (addi tab (broadcastInDim S20 ![] bcast_S_S20 (constantI S_ 32 21#32))) tab)

/-- The joints of a table gathered out of a joint array, along the joint axis. -/
def gath (x : FVec F S524288x21x3 .f32) (tab : IVec S20 32) : FVec F S524288x20x3 .f32 :=
  Host.gather gather_S524288x21x3_S20x1_S524288x20x3_02_1_n_n_1_1_52428813 x (normIdx tab)

/-- The coordinate differences of every bone's two end joints. -/
def diff (x : FVec F S524288x21x3 .f32) : FVec F S524288x20x3 .f32 := subf (gath x tabA) (gath x tabB)

/-- @norm: the square root of the sum over the coordinate axis of the squares. -/
def nrm (d : FVec F S524288x20x3 .f32) : FVec F S524288x20 .f32 :=
  Host.sqrt (Host.reduceAdd (mulf d d) (constant S_ .f32 0x00000000#32) reducesTo_S524288x20x3_S524288x20_d2 h_S_)

/-- The relative error of every bone length. -/
def relv (p g : FVec F S524288x21x3 .f32) : FVec F S524288x20 .f32 :=
  Host.divf (Host.absf (subf (nrm (diff p)) (nrm (diff g)))) (nrm (diff g))

/-- The result: the total of the relative errors divided by their number. -/
def out (p g : FVec F S524288x21x3 .f32) : FVec F S_ .f32 :=
  Host.divf (Host.reduceAdd (relv p g) (constant S_ .f32 0x00000000#32) reducesTo_S524288x20_S_d0_1 h_S_)
    (constant S_ .f32 0x4B200000#32)

/-! ## The operations -/

/-- @main's 55 operations, in order; @norm's four listed at each of its two calls over that call's buffers. -/
abbrev ops : List (HloOp τ sig (Elt F)) :=
  [ nullary main_c (fun i => lit0 (S20.rowMajor i)),
    nullary main_c_0 (fun i => lit1 (S20.rowMajor i)),
    nullary main_c_1 (constantI S_ 32 0#32),
    unary main_c_1 main_v0 (broadcastInDim S20 ![] bcast_S_S20 : (⟨S_, .i32⟩ : BufTy).Contents (Elt F) → (⟨S20, .i32⟩ : BufTy).Contents (Elt F)),
    binary main_c main_v0 main_v1 (cmpi .slt : (⟨S20, .i32⟩ : BufTy).Contents (Elt F) → (⟨S20, .i32⟩ : BufTy).Contents (Elt F) → (⟨S20, .i1⟩ : BufTy).Contents (Elt F)),
    nullary main_c_2 (constantI S_ 32 21#32),
    unary main_c_2 main_v2 (broadcastInDim S20 ![] bcast_S_S20 : (⟨S_, .i32⟩ : BufTy).Contents (Elt F) → (⟨S20, .i32⟩ : BufTy).Contents (Elt F)),
    binary main_c main_v2 main_v3 (addi : (⟨S20, .i32⟩ : BufTy).Contents (Elt F) → (⟨S20, .i32⟩ : BufTy).Contents (Elt F) → (⟨S20, .i32⟩ : BufTy).Contents (Elt F)),
    ternary main_v1 main_v3 main_c main_v4 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v4 main_v5 (broadcastInDim S20x1 ![0] bcast_S20_S20x1_0 : (⟨S20, .i32⟩ : BufTy).Contents (Elt F) → (⟨S20x1, .i32⟩ : BufTy).Contents (Elt F)),
    binary main_arg0 main_v5 main_v6 ((fun x i => Host.gather gather_S524288x21x3_S20x1_S524288x20x3_02_1_n_n_1_1_52428813 x i) : (⟨S524288x21x3, .f32⟩ : BufTy).Contents (Elt F) → (⟨S20x1, .i32⟩ : BufTy).Contents (Elt F) → (⟨S524288x20x3, .f32⟩ : BufTy).Contents (Elt F)),
    nullary main_c_3 (constantI S_ 32 0#32),
    unary main_c_3 main_v7 (broadcastInDim S20 ![] bcast_S_S20 : (⟨S_, .i32⟩ : BufTy).Contents (Elt F) → (⟨S20, .i32⟩ : BufTy).Contents (Elt F)),
    binary main_c_0 main_v7 main_v8 (cmpi .slt : (⟨S20, .i32⟩ : BufTy).Contents (Elt F) → (⟨S20, .i32⟩ : BufTy).Contents (Elt F) → (⟨S20, .i1⟩ : BufTy).Contents (Elt F)),
    nullary main_c_4 (constantI S_ 32 21#32),
    unary main_c_4 main_v9 (broadcastInDim S20 ![] bcast_S_S20 : (⟨S_, .i32⟩ : BufTy).Contents (Elt F) → (⟨S20, .i32⟩ : BufTy).Contents (Elt F)),
    binary main_c_0 main_v9 main_v10 (addi : (⟨S20, .i32⟩ : BufTy).Contents (Elt F) → (⟨S20, .i32⟩ : BufTy).Contents (Elt F) → (⟨S20, .i32⟩ : BufTy).Contents (Elt F)),
    ternary main_v8 main_v10 main_c_0 main_v11 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v11 main_v12 (broadcastInDim S20x1 ![0] bcast_S20_S20x1_0 : (⟨S20, .i32⟩ : BufTy).Contents (Elt F) → (⟨S20x1, .i32⟩ : BufTy).Contents (Elt F)),
    binary main_arg0 main_v12 main_v13 ((fun x i => Host.gather gather_S524288x21x3_S20x1_S524288x20x3_02_1_n_n_1_1_52428813 x i) : (⟨S524288x21x3, .f32⟩ : BufTy).Contents (Elt F) → (⟨S20x1, .i32⟩ : BufTy).Contents (Elt F) → (⟨S524288x20x3, .f32⟩ : BufTy).Contents (Elt F)),
    binary main_v6 main_v13 main_v14 (subf : (⟨S524288x20x3, .f32⟩ : BufTy).Contents (Elt F) → (⟨S524288x20x3, .f32⟩ : BufTy).Contents (Elt F) → (⟨S524288x20x3, .f32⟩ : BufTy).Contents (Elt F)),
    TRef.binary (.of main_v14) (.of main_v14) main_call0.v0 mulf,
    TRef.nullary main_call0.cst (constant S_ .f32 0x00000000#32),
    TRef.binary main_call0.v0 main_call0.cst main_call0.v1 (fun x v => Host.reduceAdd x v reducesTo_S524288x20x3_S524288x20_d2 h_S_),
    TRef.unary main_call0.v1 main_call0.v2 Host.sqrt,
    nullary main_c_5 (constantI S_ 32 0#32),
    unary main_c_5 main_v16 (broadcastInDim S20 ![] bcast_S_S20 : (⟨S_, .i32⟩ : BufTy).Contents (Elt F) → (⟨S20, .i32⟩ : BufTy).Contents (Elt F)),
    binary main_c main_v16 main_v17 (cmpi .slt : (⟨S20, .i32⟩ : BufTy).Contents (Elt F) → (⟨S20, .i32⟩ : BufTy).Contents (Elt F) → (⟨S20, .i1⟩ : BufTy).Contents (Elt F)),
    nullary main_c_6 (constantI S_ 32 21#32),
    unary main_c_6 main_v18 (broadcastInDim S20 ![] bcast_S_S20 : (⟨S_, .i32⟩ : BufTy).Contents (Elt F) → (⟨S20, .i32⟩ : BufTy).Contents (Elt F)),
    binary main_c main_v18 main_v19 (addi : (⟨S20, .i32⟩ : BufTy).Contents (Elt F) → (⟨S20, .i32⟩ : BufTy).Contents (Elt F) → (⟨S20, .i32⟩ : BufTy).Contents (Elt F)),
    ternary main_v17 main_v19 main_c main_v20 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v20 main_v21 (broadcastInDim S20x1 ![0] bcast_S20_S20x1_0 : (⟨S20, .i32⟩ : BufTy).Contents (Elt F) → (⟨S20x1, .i32⟩ : BufTy).Contents (Elt F)),
    binary main_arg1 main_v21 main_v22 ((fun x i => Host.gather gather_S524288x21x3_S20x1_S524288x20x3_02_1_n_n_1_1_52428813 x i) : (⟨S524288x21x3, .f32⟩ : BufTy).Contents (Elt F) → (⟨S20x1, .i32⟩ : BufTy).Contents (Elt F) → (⟨S524288x20x3, .f32⟩ : BufTy).Contents (Elt F)),
    nullary main_c_7 (constantI S_ 32 0#32),
    unary main_c_7 main_v23 (broadcastInDim S20 ![] bcast_S_S20 : (⟨S_, .i32⟩ : BufTy).Contents (Elt F) → (⟨S20, .i32⟩ : BufTy).Contents (Elt F)),
    binary main_c_0 main_v23 main_v24 (cmpi .slt : (⟨S20, .i32⟩ : BufTy).Contents (Elt F) → (⟨S20, .i32⟩ : BufTy).Contents (Elt F) → (⟨S20, .i1⟩ : BufTy).Contents (Elt F)),
    nullary main_c_8 (constantI S_ 32 21#32),
    unary main_c_8 main_v25 (broadcastInDim S20 ![] bcast_S_S20 : (⟨S_, .i32⟩ : BufTy).Contents (Elt F) → (⟨S20, .i32⟩ : BufTy).Contents (Elt F)),
    binary main_c_0 main_v25 main_v26 (addi : (⟨S20, .i32⟩ : BufTy).Contents (Elt F) → (⟨S20, .i32⟩ : BufTy).Contents (Elt F) → (⟨S20, .i32⟩ : BufTy).Contents (Elt F)),
    ternary main_v24 main_v26 main_c_0 main_v27 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v27 main_v28 (broadcastInDim S20x1 ![0] bcast_S20_S20x1_0 : (⟨S20, .i32⟩ : BufTy).Contents (Elt F) → (⟨S20x1, .i32⟩ : BufTy).Contents (Elt F)),
    binary main_arg1 main_v28 main_v29 ((fun x i => Host.gather gather_S524288x21x3_S20x1_S524288x20x3_02_1_n_n_1_1_52428813 x i) : (⟨S524288x21x3, .f32⟩ : BufTy).Contents (Elt F) → (⟨S20x1, .i32⟩ : BufTy).Contents (Elt F) → (⟨S524288x20x3, .f32⟩ : BufTy).Contents (Elt F)),
    binary main_v22 main_v29 main_v30 (subf : (⟨S524288x20x3, .f32⟩ : BufTy).Contents (Elt F) → (⟨S524288x20x3, .f32⟩ : BufTy).Contents (Elt F) → (⟨S524288x20x3, .f32⟩ : BufTy).Contents (Elt F)),
    TRef.binary (.of main_v30) (.of main_v30) main_call1.v0 mulf,
    TRef.nullary main_call1.cst (constant S_ .f32 0x00000000#32),
    TRef.binary main_call1.v0 main_call1.cst main_call1.v1 (fun x v => Host.reduceAdd x v reducesTo_S524288x20x3_S524288x20_d2 h_S_),
    TRef.unary main_call1.v1 main_call1.v2 Host.sqrt,
    binary main_v15 main_v31 main_v32 (subf : (⟨S524288x20, .f32⟩ : BufTy).Contents (Elt F) → (⟨S524288x20, .f32⟩ : BufTy).Contents (Elt F) → (⟨S524288x20, .f32⟩ : BufTy).Contents (Elt F)),
    unary main_v32 main_v33 (Host.absf : (⟨S524288x20, .f32⟩ : BufTy).Contents (Elt F) → (⟨S524288x20, .f32⟩ : BufTy).Contents (Elt F)),
    binary main_v33 main_v31 main_v34 (Host.divf : (⟨S524288x20, .f32⟩ : BufTy).Contents (Elt F) → (⟨S524288x20, .f32⟩ : BufTy).Contents (Elt F) → (⟨S524288x20, .f32⟩ : BufTy).Contents (Elt F)),
    nullary main_cst (constant S_ .f32 0x00000000#32),
    binary main_v34 main_cst main_v35 ((fun x v => Host.reduceAdd x v reducesTo_S524288x20_S_d0_1 h_S_) : (⟨S524288x20, .f32⟩ : BufTy).Contents (Elt F) → (⟨S_, .f32⟩ : BufTy).Contents (Elt F) → (⟨S_, .f32⟩ : BufTy).Contents (Elt F)),
    nullary main_cst_9 (constant S_ .f32 0x4B200000#32),
    binary main_v35 main_cst_9 main_v36 (Host.divf : (⟨S_, .f32⟩ : BufTy).Contents (Elt F) → (⟨S_, .f32⟩ : BufTy).Contents (Elt F) → (⟨S_, .f32⟩ : BufTy).Contents (Elt F)) ]

-- fifty-five binds re-associated: the rewrite under the chain recurses once per statement
set_option maxRecDepth 1024 in
/-- @main is that straight line: @norm's definition unfolded at its two calls and the records at their fields, both
    sides are one chain of steps once sequencing is reassociated. -/
theorem main_eq (c : Dev nD) : main (F := F) c = seq ops := by
  simp only [main, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    binary_bufs_sub .., nullary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    binary_bufs_sub .., nullary_bufs_sub .., binary_bufs_sub .., unary_bufs_sub ..,
    binary_bufs_sub .., unary_bufs_sub .., binary_bufs_sub .., nullary_bufs_sub .., binary_bufs_sub .., nullary_bufs_sub ..,
    binary_bufs_sub ..⟩

/-! ## The buffers after the line -/

attribute [local irreducible] Host.gather Host.reduceAdd in
set_option maxRecDepth 8192 in
/-- The fold at the result buffer is `out` of the two arguments' contents: each operation's result read at its own
    buffer and left alone elsewhere; the gathers and the sums stay folded meanwhile (the equation never looks inside
    them). -/
theorem out_eq (V : Valuation τ sig (Elt F)) :
    after ops V (main_v36 : DevRef τ sig) = out (V (main_arg0 : DevRef τ sig)) (V (main_arg1 : DevRef τ sig)) := by
  after_results_simp
  rfl

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

/-- On every device, for any float values, from any memory with zero counters: every weakly fair execution of @main
    terminates with the result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v36).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's result read at its one index: it is the specification's mean relative bone-length error.

  The run leaves the result buffer at the composed term `out` of the two joint arrays. Reading it:
  * each index table, normalised, is the table itself (every joint number is at least 0), and its entry for bone `b` is
    the joint `jointA b` (or `jointB b`): twenty cases each, decided;
  * a gather along the joint axis reads, at sample `i`, bone `b`, coordinate `c`, the operand at
    `(i, min k 20, c)` for `k` the start index of bone `b` read as a signed integer; every joint number being at
    most 20, the clamp disappears;
  * the sum over the coordinate axis is the sum over its three coordinates, from the zero literal; the total sum is the
    sum over every (sample, bone) pair, split into the double sum over the two coordinates;
  * the host's square root, absolute value and quotient at an index are the extended reals' `Ideal.sqrt`, `max d (-d)`
    and `Ideal.div`.
  The operations at an index are stated over variables and applied by rewriting, so no full-size term is unfolded.
-/
import proofs.«155267_j75093208203682_2_alg».proof.Proof.RefRun
import proofs.«155267_j75093208203682_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.RefRun Idealize.ShloMosaic Idealize.ShloMosaic.ValueIdx Cert.BoneLoss
open Idealize.ShloMosaic.TcCoe Idealize.SL.Sem
open Cert.ReferenceIdeal.Facts₀
open scoped BigOperators

/-- The gathers' dimension numbers, under a short name. -/
abbrev gd : GatherDims S524288x21x3 S20x1 S524288x20x3 := gather_S524288x21x3_S20x1_S524288x20x3_02_1_n_n_1_1_52428813

/-- THE GATHER READ AT (i, b, c): on the sample and coordinate axes the result's own coordinates (offset axes of a full
    slice, start 0); on the joint axis, collapsed, the start index of bone `b` — the entry `(b, 0)` of the column of
    start indices — read signed and clamped into `[0, 21 − 1]`. -/
theorem gather_apply {α : Type} {w : Nat} (x : S524288x21x3.Idx → α) (idx : IVec S20x1 w)
    (i : Fin 524288) (b : Fin 20) (c : Fin 3) :
    Host.gather gd x idx (ix3 i b c) = x (ix3 i ⟨min (idx (ix2 b 0)).toInt.toNat 20, by omega⟩ c) := by
  unfold Host.gather
  congr 1
  funext a
  refine Fin.ext ?_
  match a with
  | ⟨0, _⟩ =>
    show gd.start (ix3 i b c) idx ⟨0, by decide⟩ + gd.batchCoord (ix3 i b c) ⟨0, by decide⟩
      + gd.offCoord (ix3 i b c) ⟨0, by decide⟩ = i.val
    have hs : gd.start (ix3 i b c) idx ⟨0, by decide⟩ = 0 := by unfold GatherDims.start; exact dif_neg (by decide)
    have hb : gd.batchCoord (ix3 i b c) ⟨0, by decide⟩ = 0 := GatherDims.batchCoord_eq_zero _ _ _ (by decide)
    have ho : gd.offCoord (ix3 i b c) ⟨0, by decide⟩ = i.val := by
      unfold GatherDims.offCoord; rw [dif_pos (by decide)]; rfl
    rw [hs, hb, ho]; omega
  | ⟨1, _⟩ =>
    show gd.start (ix3 i b c) idx ⟨1, by decide⟩ + gd.batchCoord (ix3 i b c) ⟨1, by decide⟩
      + gd.offCoord (ix3 i b c) ⟨1, by decide⟩ = min (idx (ix2 b 0)).toInt.toNat 20
    have hb : gd.batchCoord (ix3 i b c) ⟨1, by decide⟩ = 0 := GatherDims.batchCoord_eq_zero _ _ _ (by decide)
    have ho : gd.offCoord (ix3 i b c) ⟨1, by decide⟩ = 0 := GatherDims.offCoord_eq_zero _ _ _ (by decide)
    rw [hb, ho]; simp only [Nat.add_zero]
    unfold GatherDims.start
    rw [dif_pos (by decide)]
    have hsi : gd.siIdx (ix3 i b c) ⟨List.idxOf (⟨1, by decide⟩ : Fin S524288x21x3.rank) gd.startIndexMap,
        List.idxOf_lt_length_iff.2 (by decide)⟩ = ix2 b 0 := by
      funext e; refine Fin.ext ?_
      match e with
      | ⟨0, _⟩ => rfl
      | ⟨1, _⟩ => rfl
    rw [hsi]
    rfl
  | ⟨2, _⟩ =>
    show gd.start (ix3 i b c) idx ⟨2, by decide⟩ + gd.batchCoord (ix3 i b c) ⟨2, by decide⟩
      + gd.offCoord (ix3 i b c) ⟨2, by decide⟩ = c.val
    have hs : gd.start (ix3 i b c) idx ⟨2, by decide⟩ = 0 := by unfold GatherDims.start; exact dif_neg (by decide)
    have hb : gd.batchCoord (ix3 i b c) ⟨2, by decide⟩ = 0 := GatherDims.batchCoord_eq_zero _ _ _ (by decide)
    have ho : gd.offCoord (ix3 i b c) ⟨2, by decide⟩ = c.val := by
      unfold GatherDims.offCoord; rw [dif_pos (by decide)]; rfl
    rw [hs, hb, ho]; omega

/-! ## The tables -/

/-- The first table's normalised entry for bone `b` is the joint number `jointA b`: twenty cases. -/
theorem normIdx_tabA (b : Fin 20) : (normIdx tabA (ix2 b 0)).toInt.toNat = (jointA b).val := by
  revert b; decide

/-- The second table's normalised entry for bone `b` is the joint number `jointB b`. -/
theorem normIdx_tabB (b : Fin 20) : (normIdx tabB (ix2 b 0)).toInt.toNat = (jointB b).val := by
  revert b; decide

/-- The gather by the first table reads joint `jointA b`: its number is below 21, so the clamp is the identity. -/
theorem gath_tabA {F : FTy → Type} (x : FVec F S524288x21x3 .f32) (i : Fin 524288) (b : Fin 20) (c : Fin 3) :
    gath x tabA (ix3 i b c) = x (ix3 i (jointA b) c) := by
  have h : ∀ hlt, (⟨min (normIdx tabA (ix2 b 0)).toInt.toNat 20, hlt⟩ : Fin 21) = jointA b := fun hlt =>
    Fin.ext (by
      show min (normIdx tabA (ix2 b 0)).toInt.toNat 20 = (jointA b).val
      rw [normIdx_tabA]; exact Nat.min_eq_left (by have := (jointA b).isLt; omega))
  unfold gath
  rw [gather_apply, h]

/-- The gather by the second table reads joint `jointB b`. -/
theorem gath_tabB {F : FTy → Type} (x : FVec F S524288x21x3 .f32) (i : Fin 524288) (b : Fin 20) (c : Fin 3) :
    gath x tabB (ix3 i b c) = x (ix3 i (jointB b) c) := by
  have h : ∀ hlt, (⟨min (normIdx tabB (ix2 b 0)).toInt.toNat 20, hlt⟩ : Fin 21) = jointB b := fun hlt =>
    Fin.ext (by
      show min (normIdx tabB (ix2 b 0)).toInt.toNat 20 = (jointB b).val
      rw [normIdx_tabB]; exact Nat.min_eq_left (by have := (jointB b).isLt; omega))
  unfold gath
  rw [gather_apply, h]

/-! ## The host's operations at an index, over variables

Each is a computation once the operand is a variable; they are stated here over variables and used by rewriting, so that
no full-size term is ever unfolded. -/

theorem hostSqrt_apply {s : Shape} (v : FVec Ideal s .f32) (j : s.Idx) : Host.sqrt v j = Ideal.sqrt (v j) := rfl
theorem hostDivf_apply {s : Shape} (a b : FVec Ideal s .f32) (j : s.Idx) : Host.divf a b j = Ideal.div (a j) (b j) := rfl
theorem hostAbsf_apply {s : Shape} (a : FVec Ideal s .f32) (j : s.Idx) : Host.absf a j = max (a j) (-(a j)) := rfl
theorem hostReduceAdd_eq {s t : Shape} {axes : List (Fin s.rank)} (x : FVec Ideal s .f32) (init : FVec Ideal S_ .f32)
    (h : s.ReducesTo axes t) (hu : 0 < S_.numel) :
    Host.reduceAdd x init h hu = Ideal.hostReduceAdd h x (init (Shape.Idx.first hu)) := rfl

/-! ## The sums -/

/-- The coordinate axis of a difference array can be summed out. -/
theorem hRed : S524288x20x3.Reduces [2] S524288x20 := by decide

/-- The index of sample `i`, bone `b` with coordinate `c` put back on the summed axis. -/
theorem lift_eq (i : Fin 524288) (b : Fin 20) (c : Fin 3) : hRed.lift (ix2 i b) c = ix3 i b c := by
  funext a
  refine Fin.ext ?_
  match a with
  | ⟨0, _⟩ => rfl
  | ⟨1, _⟩ => rfl
  | ⟨2, _⟩ => rfl

/-- @norm at sample `i`, bone `b`: the square root of the sum over the three coordinates of the squares (the
    sum starts from the zero literal, which is `0`). -/
theorem nrm_apply (d : FVec Ideal S524288x20x3 .f32) (i : Fin 524288) (b : Fin 20) :
    nrm d (ix2 i b) = Ideal.sqrt (∑ c : Fin 3, d (ix3 i b c) * d (ix3 i b c)) := by
  have e0 : nrm d = Host.sqrt (Host.reduceAdd (mulf d d) (constant S_ .f32 0x00000000#32)
      reducesTo_S524288x20x3_S524288x20_d2 h_S_) := rfl
  rw [e0, hostSqrt_apply, hostReduceAdd_eq, constant_apply, Ideal.hostReduceAdd_single _ hRed, Ideal.ofBits_zero_f32, zero_add]
  exact congrArg Ideal.sqrt
    (Finset.sum_congr rfl fun c _ => (congrArg (mulf d d) (lift_eq i b c)).trans (mulf_apply d d _))

/-! ## The result at its one index -/

/-- A coordinate difference of the program is the specification's: the two gathers read the bone's end joints. -/
theorem diff_apply (x : FVec Ideal S524288x21x3 .f32) (i : Fin 524288) (b : Fin 20) (c : Fin 3) :
    diff x (ix3 i b c) = x (ix3 i (jointA b) c) - x (ix3 i (jointB b) c) := by
  have e0 : diff x = subf (gath x tabA) (gath x tabB) := rfl
  rw [e0, subf_apply, gath_tabA, gath_tabB]

/-- @norm of the differences is the bone length. -/
theorem nrm_diff (x : FVec Ideal S524288x21x3 .f32) (i : Fin 524288) (b : Fin 20) :
    nrm (diff x) (ix2 i b) = boneLen x i b := by
  rw [nrm_apply]
  unfold boneLen sqDiff
  refine congrArg Ideal.sqrt (Finset.sum_congr rfl fun c _ => ?_)
  rw [diff_apply]

/-- The program's relative error at sample `i`, bone `b` is the specification's: the host's absolute value is
    `max d (-d)`, its quotient the extended reals' division. -/
theorem relv_apply (p g : FVec Ideal S524288x21x3 .f32) (i : Fin 524288) (b : Fin 20) :
    relv p g (ix2 i b) = relErr p g i b := by
  have e0 : relv p g = Host.divf (Host.absf (subf (nrm (diff p)) (nrm (diff g)))) (nrm (diff g)) := rfl
  rw [e0, hostDivf_apply, hostAbsf_apply, subf_apply, nrm_diff, nrm_diff]
  unfold relErr
  rfl

/-- The program's result is the mean relative error: the total sum runs over every sample and bone (split into the
    double sum over the two coordinates), from the zero literal, and is divided by the literal of their number. -/
theorem out_apply (p g : FVec Ideal S524288x21x3 .f32) (j : S_.Idx) : out p g j = meanRel p g := by
  have e0 : out p g = Host.divf (Host.reduceAdd (relv p g) (constant S_ .f32 0x00000000#32) reducesTo_S524288x20_S_d0_1 h_S_)
      (constant S_ .f32 0x4B200000#32) := rfl
  rw [e0, hostDivf_apply, hostReduceAdd_eq, constant_apply, constant_apply,
    Ideal.hostReduceAdd_total _ (fun b => b.elim0), Ideal.ofBits_zero_f32, zero_add, sum_idx2]
  simp only [relv_apply]
  unfold meanRel
  rfl

/-! ## The run, read -/

/-- At the ideal values, from any memory with zero counters: every weakly fair execution of the reference terminates
    with its result buffer holding the mean relative bone-length error of the two argument arrays, which are left
    unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread nD τ).loc main_v36)
            = (fun _ => Cert.BoneLoss.meanRel (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run _ _ _).mono
    (fun _ h c => ⟨(h c).1.trans (funext fun j => out_apply _ _ j), (h c).2.1, (h c).2.2⟩)
    (RefRun.run m ρ)

end Cert.ReferenceIdeal.RefValue
end
-- ==== Proof.lean ====
/-
  The mean relative bone-length error of a batch of skeletons: a tiled kernel against its array-language reference.

  Both programs take two arrays of 524288 samples × 21 joints × 3 coordinates, predicted and true. A bone joins two
  joints; its length is the root of the summed squared coordinate differences; the relative error of a predicted
  length against the true one is `|len p - len g| / len g`; the result is the sum of the relative errors over all
  samples and all 20 bones divided by their number (`Cert.BoneLoss.meanRel`, Proof/Spec.lean).

  The kernel views each sample as a row of 63 numbers, walks the batch in 64 tiles of 8192 rows (two cores, 32 tiles
  each), adds each tile's 20 bone sums onto a running sum per core, writes each core's sum out at its last tile, and the
  host adds the two and divides (Proof/TileOps.lean: one tile; Proof/CaseValues.lean: one grid point;
  Proof/Accum.lean: the running sum by induction on the point; Proof/Blocks.lean: blocks, the output array, the host's
  lines; Proof/KernelValue.lean: the result is `meanRel`). The reference gathers the bones' end joints through two index
  tables, takes the norms, and sums over samples and bones at once (Proof/RefRun.lean, Proof/RefValue.lean). On the
  extended reals every operation is the same exact function in both programs and the two differ only in the order and
  grouping of additions, which commutativity and associativity settle: the precondition is never opened.

  The three frame claims are the generated frame certificates (the reference's from its run with the result dropped);
  the idealization rewrote nothing, so its claim is `True`.
-/
import proofs.«155267_j75093208203682_2_alg».proof.Defs
import proofs.«155267_j75093208203682_2_alg».proof.Proof.Gen.Kernel
import proofs.«155267_j75093208203682_2_alg».proof.Proof.Gen.Kernel.Skeleton
import proofs.«155267_j75093208203682_2_alg».proof.Proof.Gen.Kernel.Launch
import proofs.«155267_j75093208203682_2_alg».proof.Proof.Gen.Kernel.Points
import proofs.«155267_j75093208203682_2_alg».proof.Proof.Gen.Kernel.Frame
import proofs.«155267_j75093208203682_2_alg».proof.Proof.Gen.KernelIdeal
import proofs.«155267_j75093208203682_2_alg».proof.Proof.Gen.KernelIdeal.Skeleton
import proofs.«155267_j75093208203682_2_alg».proof.Proof.Gen.KernelIdeal.Launch
import proofs.«155267_j75093208203682_2_alg».proof.Proof.Gen.KernelIdeal.Points
import proofs.«155267_j75093208203682_2_alg».proof.Proof.Gen.KernelIdeal.Frame
import proofs.«155267_j75093208203682_2_alg».proof.Proof.Gen.ReferenceIdeal
import proofs.«155267_j75093208203682_2_alg».proof.Proof.Gen.Pre_finite_inputs
import proofs.«155267_j75093208203682_2_alg».proof.Proof.KernelValue
import proofs.«155267_j75093208203682_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- On the extended reals both programs end at the mean relative bone-length error of arguments that agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
